-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x8 : Shape := ⟨2, ![256, 8]⟩
abbrev S8 : Shape := ⟨1, ![8]⟩
abbrev S2x160000 : Shape := ⟨2, ![2, 160000]⟩
abbrev S10000 : Shape := ⟨1, ![10000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S256 .f32) (main_arg5 : FVec F S256x8 .f32) (main_arg6 : FVec F S8 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x8 .f32 := Host.absf main_arg5
  let main_cst_8 : FVec F S_ .f32 := constant S_ .f32 0x7F800000#32
  let main_v25 : FVec F S256x8 .f32 := broadcastInDim S256x8 ![] bcast_S_S256x8 main_cst_8
  let main_v26 : IVec S256x8 1 := cmpf .olt main_v24 main_v25
  let main_c_9 : IVec S_ 1 := constantI S_ 1 1#1
  let main_v27 : IVec S_ 1 := (fun x v => Host.reduce IntOp.andi x v reducesTo_S256x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S10000x512 .f32) (main_arg1 : FVec F S512x512 .f32) (main_arg2 : FVec F S512 .f32) (main_arg3 : FVec F S512x256 .f32) (main_arg4 : FVec F S256 .f32) (main_arg5 : FVec F S256x8 .f32) (main_arg6 : FVec F S8 .f32) (main_arg7 : IVec S2x160000 32) (main_arg8 : IVec S10000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S10000x512 : Shape := ⟨2, ![10000, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x8 : Shape := ⟨2, ![256, 8]⟩
abbrev S8 : Shape := ⟨1, ![8]⟩
abbrev S2x160000 : Shape := ⟨2, ![2, 160000]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S2000x512 : Shape := ⟨2, ![2000, 512]⟩
abbrev S170000x512 : Shape := ⟨2, ![170000, 512]⟩
abbrev S1x512 : Shape := ⟨2, ![1, 512]⟩
abbrev S10000x256 : Shape := ⟨2, ![10000, 256]⟩
abbrev S2000x256 : Shape := ⟨2, ![2000, 256]⟩
abbrev S170000x256 : Shape := ⟨2, ![170000, 256]⟩
abbrev S1x256 : Shape := ⟨2, ![1, 256]⟩
abbrev S64x256 : Shape := ⟨2, ![64, 256]⟩
abbrev S10000x1 : Shape := ⟨2, ![10000, 1]⟩
abbrev S64 : Shape := ⟨1, ![64]⟩
abbrev S64x1 : Shape := ⟨2, ![64, 1]⟩
abbrev S64x8 : Shape := ⟨2, ![64, 8]⟩
abbrev S1x8 : Shape := ⟨2, ![1, 8]⟩

abbrev nBuf : Space → Nat
  | .hbm => 119
  | .vmem => 10
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x8, .f32⟩
  | .hbm, ⟨6, _⟩ => ⟨S8, .f32⟩
  | .hbm, ⟨7, _⟩ => ⟨S2x160000, .i32⟩
  | .hbm, ⟨8, _⟩ => ⟨S10000, .i32⟩
  | .hbm, ⟨9, _⟩ => ⟨S1x160000, .i32⟩
  | .hbm, ⟨10, _⟩ => ⟨S160000, .i32⟩
  | .hbm, ⟨11, _⟩ => ⟨S1x160000, .i32⟩
  | .hbm, ⟨12, _⟩ => ⟨S160000, .i32⟩
  | .hbm, ⟨13, _⟩ => ⟨S10000, .i32⟩
  | .hbm, ⟨14, _⟩ => ⟨S170000, .i32⟩
  | .hbm, ⟨15, _⟩ => ⟨S170000, .i32⟩
  | .hbm, ⟨16, _⟩ => ⟨S_, .f32⟩
  | .hbm, ⟨17, _⟩ => ⟨S170000, .f32⟩
  | .hbm, ⟨18, _⟩ => ⟨S_, .f32⟩
  | .hbm, ⟨19, _⟩ => ⟨S10000, .f32⟩
  | .hbm, ⟨20, _⟩ => ⟨S170000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .i1⟩
  | .hbm, ⟨25, _⟩ => ⟨S10000, .f32⟩
  | .hbm, ⟨26, _⟩ => ⟨S_, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .i32⟩
  | .hbm, ⟨31, _⟩ => ⟨S170000, .i32⟩
  | .hbm, ⟨32, _⟩ => ⟨S170000, .i1⟩
  | .hbm, ⟨33, _⟩ => ⟨S_, .i32⟩
  | .hbm, ⟨34, _⟩ => ⟨S170000, .i32⟩
  | .hbm, ⟨35, _⟩ => ⟨S170000, .i32⟩
  | .hbm, ⟨36, _⟩ => ⟨S170000, .i32⟩
  | .hbm, ⟨37, _⟩ => ⟨S170000x1, .i32⟩
  | .hbm, ⟨38, _⟩ => ⟨S170000, .f32⟩
  | .hbm, ⟨39, _⟩ => ⟨S_, .i32⟩
  | .hbm, ⟨40, _⟩ => ⟨S170000, .i32⟩
  | .hbm, ⟨41, _⟩ => ⟨S170000, .i1⟩
  | .hbm, ⟨42, _⟩ => ⟨S_, .i32⟩
  | .hbm, ⟨43, _⟩ => ⟨S170000, .i32⟩
  | .hbm, ⟨44, _⟩ => ⟨S170000, .i32⟩
  | .hbm, ⟨45, _⟩ => ⟨S170000, .i32⟩
  | .hbm, ⟨46, _⟩ => ⟨S170000x1, .i32⟩
  | .hbm, ⟨47, _⟩ => ⟨S170000, .f32⟩
  | .hbm, ⟨48, _⟩ => ⟨S170000, .f32⟩
  | .hbm, ⟨49, _⟩ => ⟨S10000x512, .bf16⟩
  | .hbm, ⟨50, _⟩ => ⟨S512x512, .bf16⟩
  | .hbm, ⟨51, _⟩ => ⟨S10000x512, .f32⟩
  | .hbm, ⟨52, _⟩ => ⟨S_, .i32⟩
  | .hbm, ⟨53, _⟩ => ⟨S170000, .i32⟩
  | .hbm, ⟨54, _⟩ => ⟨S170000, .i1⟩
  | .hbm, ⟨55, _⟩ => ⟨S_, .i32⟩
  | .hbm, ⟨56, _⟩ => ⟨S170000, .i32⟩
  | .hbm, ⟨57, _⟩ => ⟨S170000, .i32⟩
  | .hbm, ⟨58, _⟩ => ⟨S170000, .i32⟩
  | .hbm, ⟨59, _⟩ => ⟨S170000x1, .i32⟩
  | .hbm, ⟨60, _⟩ => ⟨S170000x512, .f32⟩
  | .hbm, ⟨61, _⟩ => ⟨S170000x1, .f32⟩
  | .hbm, ⟨62, _⟩ => ⟨S170000x512, .f32⟩
  | .hbm, ⟨63, _⟩ => ⟨S170000x512, .f32⟩
  | .hbm, ⟨64, _⟩ => ⟨S_, .f32⟩
  | .hbm, ⟨65, _⟩ => ⟨S10000x512, .f32⟩
  | .hbm, ⟨66, _⟩ => ⟨S170000x1, .i32⟩
  | .hbm, ⟨67, _⟩ => ⟨S10000x512, .f32⟩
  | .hbm, ⟨68, _⟩ => ⟨S1x512, .f32⟩
  | .hbm, ⟨69, _⟩ => ⟨S10000x512, .f32⟩
  | .hbm, ⟨70, _⟩ => ⟨S10000x512, .f32⟩
  | .hbm, ⟨71, _⟩ => ⟨S_, .f32⟩
  | .hbm, ⟨72, _⟩ => ⟨S10000x512, .f32⟩
  | .hbm, ⟨73, _⟩ => ⟨S10000x512, .f32⟩
  | .hbm, ⟨74, _⟩ => ⟨S10000x512, .bf16⟩
  | .hbm, ⟨75, _⟩ => ⟨S512x256, .bf16⟩
  | .hbm, ⟨76, _⟩ => ⟨S10000x256, .f32⟩
  | .hbm, ⟨77, _⟩ => ⟨S_, .i32⟩
  | .hbm, ⟨78, _⟩ => ⟨S170000, .i32⟩
  | .hbm, ⟨79, _⟩ => ⟨S170000, .i1⟩
  | .hbm, ⟨80, _⟩ => ⟨S_, .i32⟩
  | .hbm, ⟨81, _⟩ => ⟨S170000, .i32⟩
  | .hbm, ⟨82, _⟩ => ⟨S170000, .i32⟩
  | .hbm, ⟨83, _⟩ => ⟨S170000, .i32⟩
  | .hbm, ⟨84, _⟩ => ⟨S170000x1, .i32⟩
  | .hbm, ⟨85, _⟩ => ⟨S170000x256, .f32⟩
  | .hbm, ⟨86, _⟩ => ⟨S170000x1, .f32⟩
  | .hbm, ⟨87, _⟩ => ⟨S170000x256, .f32⟩
  | .hbm, ⟨88, _⟩ => ⟨S170000x256, .f32⟩
  | .hbm, ⟨89, _⟩ => ⟨S_, .f32⟩
  | .hbm, ⟨90, _⟩ => ⟨S10000x256, .f32⟩
  | .hbm, ⟨91, _⟩ => ⟨S170000x1, .i32⟩
  | .hbm, ⟨92, _⟩ => ⟨S10000x256, .f32⟩
  | .hbm, ⟨93, _⟩ => ⟨S1x256, .f32⟩
  | .hbm, ⟨94, _⟩ => ⟨S10000x256, .f32⟩
  | .hbm, ⟨95, _⟩ => ⟨S10000x256, .f32⟩
  | .hbm, ⟨96, _⟩ => ⟨S_, .f32⟩
  | .hbm, ⟨97, _⟩ => ⟨S10000x256, .f32⟩
  | .hbm, ⟨98, _⟩ => ⟨S10000x256, .f32⟩
  | .hbm, ⟨99, _⟩ => ⟨S_, .f32⟩
  | .hbm, ⟨100, _⟩ => ⟨S64x256, .f32⟩
  | .hbm, ⟨101, _⟩ => ⟨S10000x1, .i32⟩
  | .hbm, ⟨102, _⟩ => ⟨S64x256, .f32⟩
  | .hbm, ⟨103, _⟩ => ⟨S_, .f32⟩
  | .hbm, ⟨104, _⟩ => ⟨S10000, .f32⟩
  | .hbm, ⟨105, _⟩ => ⟨S_, .f32⟩
  | .hbm, ⟨106, _⟩ => ⟨S64, .f32⟩
  | .hbm, ⟨107, _⟩ => ⟨S10000x1, .i32⟩
  | .hbm, ⟨108, _⟩ => ⟨S64, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64x1, .f32⟩
  | .hbm, ⟨113, _⟩ => ⟨S64x256, .f32⟩
  | .hbm, ⟨114, _⟩ => ⟨S64x256, .f32⟩
  | .hbm, ⟨115, _⟩ => ⟨S64x8, .f32⟩
  | .hbm, ⟨116, _⟩ => ⟨S1x8, .f32⟩
  | .hbm, ⟨117, _⟩ => ⟨S64x8, .f32⟩
  | .hbm, ⟨118, _⟩ => ⟨S64x8, .f32⟩
  | .local _ .vmem, ⟨0, _⟩ => ⟨S2000x512, .bf16⟩
  | .local _ .vmem, ⟨1, _⟩ => ⟨S2000x512, .bf16⟩
  | .local _ .vmem, ⟨2, _⟩ => ⟨S512x512, .bf16⟩
  | .local _ .vmem, ⟨3, _⟩ => ⟨S2000x512, .f32⟩
  | .local _ .vmem, ⟨4, _⟩ => ⟨S2000x512, .f32⟩
  | .local _ .vmem, ⟨5, _⟩ => ⟨S2000x512, .bf16⟩
  | .local _ .vmem, ⟨6, _⟩ => ⟨S2000x512, .bf16⟩
  | .local _ .vmem, ⟨7, _⟩ => ⟨S512x256, .bf16⟩
  | .local _ .vmem, ⟨8, _⟩ => ⟨S2000x256, .f32⟩
  | .local _ .vmem, ⟨9, _⟩ => ⟨S2000x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call2_cst : Ref sig .tc := ⟨.hbm, 96, rfl⟩
abbrev main_call2_v0 : Ref sig .tc := ⟨.hbm, 97, rfl⟩
abbrev main_v69 : Ref sig .tc := ⟨.hbm, 98, rfl⟩
abbrev main_cst_12 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_13 : Ref sig .tc := ⟨.hbm, 103, rfl⟩
abbrev main_v73 : Ref sig .tc := ⟨.hbm, 104, rfl⟩
abbrev main_cst_14 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S64x256 : S_.BroadcastsInDim S64x256 (![] : Fin 0 → Fin S64x256.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S2000x512_S512x512_S2000x512_1_0_0_1_n_n_wf : DotDims.WF S2000x512 S512x512 S2000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S2000x512_S512x256_S2000x256_1_0_0_1_n_n_wf : DotDims.WF S2000x512 S512x256 S2000x256 [1] [0] [0] [1] [] []
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1
  scatter_S64x256_S10000x1_S10000x256_1_0_0_1_wf : ScatterDims.WF S64x256 S10000x1 S10000x256 [1] [0] [0] 1
  scatter_S64_S10000x1_S10000_n_0_0_1_wf : ScatterDims.WF S64 S10000x1 S10000 [] [0] [0] 1
  dot_S64x256_S256x8_S64x8_1_0_0_1_n_n_wf : DotDims.WF S64x256 S256x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .bf16 = 32 ∨ (Rect.block (s := S10000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .f32 = 32 ∨ (Rect.block (s := S10000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .bf16 = 32 ∨ (Rect.block (s := S10000x512) S2000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .bf16 = 32 ∨ (Rect.block (s := S512x256) S512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S10000x256.size a
  hwx1_2 : ∀ i : grid1.Coords, EltTy.bits .f32 = 32 ∨ (Rect.block (s := S10000x256) S2000x256.size (cc1_transform_2 i) (hinb1_2 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x256_S256x8_S64x8_1_0_0_1_n_n : DotDims S64x256 S256x8 S64x8 where
  lhsContracting := [1]
  rhsContracting := [0]
  lhsNonContracting := [0]
  rhsNonContracting := [1]
  lhsBatch := []
  rhsBatch := []
  wf := dot_S64x256_S256x8_S64x8_1_0_0_1_n_n_wf

abbrev win0_0 : Pipeline.Window sig grid0 :=
  Pipeline.Window.ofSpec (Memref.whole main_v30) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x512 : Shape := ⟨2, ![10000, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x8 : Shape := ⟨2, ![256, 8]⟩
abbrev S8 : Shape := ⟨1, ![8]⟩
abbrev S2x160000 : Shape := ⟨2, ![2, 160000]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S170000x512 : Shape := ⟨2, ![170000, 512]⟩
abbrev S1x512 : Shape := ⟨2, ![1, 512]⟩
abbrev S10000x256 : Shape := ⟨2, ![10000, 256]⟩
abbrev S170000x256 : Shape := ⟨2, ![170000, 256]⟩
abbrev S1x256 : Shape := ⟨2, ![1, 256]⟩
abbrev S64x256 : Shape := ⟨2, ![64, 256]⟩
abbrev S10000x1 : Shape := ⟨2, ![10000, 1]⟩
abbrev S64 : Shape := ⟨1, ![64]⟩
abbrev S64x1 : Shape := ⟨2, ![64, 1]⟩
abbrev S64x8 : Shape := ⟨2, ![64, 8]⟩
abbrev S1x8 : Shape := ⟨2, ![1, 8]⟩

abbrev nBuf : Space → Nat
  | .hbm => 151
  | .vmem => 0
  | .smem => 0
  | _ => 0

abbrev hbmTy0_0 (i : Nat) : BufTy := match i % 128 with
  | 0 => ⟨S10000x512, .f32⟩
  | 1 => ⟨S512x512, .f32⟩
  | 2 => ⟨S512, .f32⟩
  | 3 => ⟨S512x256, .f32⟩
  | 4 => ⟨S256, .f32⟩
  | 5 => ⟨S256x8, .f32⟩
  | 6 => ⟨S8, .f32⟩
  | 7 => ⟨S2x160000, .i32⟩
  | 8 => ⟨S10000, .i32⟩
  | 9 => ⟨S1x160000, .i32⟩
  | 10 => ⟨S160000, .i32⟩
  | 11 => ⟨S1x160000, .i32⟩
  | 12 => ⟨S160000, .i32⟩
  | 13 => ⟨S10000x512, .f32⟩
  | 14 => ⟨S10000, .i32⟩
  | 15 => ⟨S170000, .i32⟩
  | 16 => ⟨S170000, .i32⟩
  | 17 => ⟨S_, .f32⟩
  | 18 => ⟨S170000, .f32⟩
  | 19 => ⟨S_, .f32⟩
  | 20 => ⟨S10000, .f32⟩
  | 21 => ⟨S170000x1, .i32⟩
  | 22 => ⟨S10000, .f32⟩
  | 23 => ⟨S_, .f32⟩
  | 24 => ⟨S10000, .f32⟩
  | 25 => ⟨S10000, .i1⟩
  | 26 => ⟨S10000, .f32⟩
  | 27 => ⟨S_, .f32⟩
  | 28 => ⟨S_, .f32⟩
  | 29 => ⟨S10000, .f32⟩
  | 30 => ⟨S10000, .f32⟩
  | 31 => ⟨S_, .i32⟩
  | 32 => ⟨S170000, .i32⟩
  | 33 => ⟨S170000, .i1⟩
  | 34 => ⟨S_, .i32⟩
  | 35 => ⟨S170000, .i32⟩
  | 36 => ⟨S170000, .i32⟩
  | 37 => ⟨S170000, .i32⟩
  | 38 => ⟨S170000x1, .i32⟩
  | 39 => ⟨S170000, .f32⟩
  | 40 => ⟨S_, .i32⟩
  | 41 => ⟨S170000, .i32⟩
  | 42 => ⟨S170000, .i1⟩
  | 43 => ⟨S_, .i32⟩
  | 44 => ⟨S170000, .i32⟩
  | 45 => ⟨S170000, .i32⟩
  | 46 => ⟨S170000, .i32⟩
  | 47 => ⟨S170000x1, .i32⟩
  | 48 => ⟨S170000, .f32⟩
  | 49 => ⟨S170000, .f32⟩
  | 50 => ⟨S_, .i32⟩
  | 51 => ⟨S170000, .i32⟩
  | 52 => ⟨S170000, .i1⟩
  | 53 => ⟨S_, .i32⟩
  | 54 => ⟨S170000, .i32⟩
  | 55 => ⟨S170000, .i32⟩
  | 56 => ⟨S170000, .i32⟩
  | 57 => ⟨S170000x1, .i32⟩
  | 58 => ⟨S170000x512, .f32⟩
  | 59 => ⟨S170000x1, .f32⟩
  | 60 => ⟨S170000x512, .f32⟩
  | 61 => ⟨S170000x512, .f32⟩
  | 62 => ⟨S_, .f32⟩
  | 63 => ⟨S10000x512, .f32⟩
  | 64 => ⟨S170000x1, .i32⟩
  | 65 => ⟨S10000x512, .f32⟩
  | 66 => ⟨S1x512, .f32⟩
  | 67 => ⟨S10000x512, .f32⟩
  | 68 => ⟨S10000x512, .f32⟩
  | 69 => ⟨S_, .f32⟩
  | 70 => ⟨S10000x512, .f32⟩
  | 71 => ⟨S10000x512, .f32⟩
  | 72 => ⟨S10000x256, .f32⟩
  | 73 => ⟨S10000, .i32⟩
  | 74 => ⟨S170000, .i32⟩
  | 75 => ⟨S170000, .i32⟩
  | 76 => ⟨S_, .f32⟩
  | 77 => ⟨S170000, .f32⟩
  | 78 => ⟨S_, .f32⟩
  | 79 => ⟨S10000, .f32⟩
  | 80 => ⟨S170000x1, .i32⟩
  | 81 => ⟨S10000, .f32⟩
  | 82 => ⟨S_, .f32⟩
  | 83 => ⟨S10000, .f32⟩
  | 84 => ⟨S10000, .i1⟩
  | 85 => ⟨S10000, .f32⟩
  | 86 => ⟨S_, .f32⟩
  | 87 => ⟨S_, .f32⟩
  | 88 => ⟨S10000, .f32⟩
  | 89 => ⟨S10000, .f32⟩
  | 90 => ⟨S_, .i32⟩
  | 91 => ⟨S170000, .i32⟩
  | 92 => ⟨S170000, .i1⟩
  | 93 => ⟨S_, .i32⟩
  | 94 => ⟨S170000, .i32⟩
  | 95 => ⟨S170000, .i32⟩
  | 96 => ⟨S170000, .i32⟩
  | 97 => ⟨S170000x1, .i32⟩
  | 98 => ⟨S170000, .f32⟩
  | 99 => ⟨S_, .i32⟩
  | 100 => ⟨S170000, .i32⟩
  | 101 => ⟨S170000, .i1⟩
  | 102 => ⟨S_, .i32⟩
  | 103 => ⟨S170000, .i32⟩
  | 104 => ⟨S170000, .i32⟩
  | 105 => ⟨S170000, .i32⟩
  | 106 => ⟨S170000x1, .i32⟩
  | 107 => ⟨S170000, .f32⟩
  | 108 => ⟨S170000, .f32⟩
  | 109 => ⟨S_, .i32⟩
  | 110 => ⟨S170000, .i32⟩
  | 111 => ⟨S170000, .i1⟩
  | 112 => ⟨S_, .i32⟩
  | 113 => ⟨S170000, .i32⟩
  | 114 => ⟨S170000, .i32⟩
  | 115 => ⟨S170000, .i32⟩
  | 116 => ⟨S170000x1, .i32⟩
  | 117 => ⟨S170000x256, .f32⟩
  | 118 => ⟨S170000x1, .f32⟩
  | 119 => ⟨S170000x256, .f32⟩
  | 120 => ⟨S170000x256, .f32⟩
  | 121 => ⟨S_, .f32⟩
  | 122 => ⟨S10000x256, .f32⟩
  | 123 => ⟨S170000x1, .i32⟩
  | 124 => ⟨S10000x256, .f32⟩
  | 125 => ⟨S1x256, .f32⟩
  | 126 => ⟨S10000x256, .f32⟩
  | 127 => ⟨S10000x256, .f32⟩
  | _ => ⟨S10000x512, .f32⟩

abbrev hbmTy0_1 (i : Nat) : BufTy := match i % 128 with
  | 0 => ⟨S_, .f32⟩
  | 1 => ⟨S10000x256, .f32⟩
  | 2 => ⟨S10000x256, .f32⟩
  | 3 => ⟨S_, .f32⟩
  | 4 => ⟨S64x256, .f32⟩
  | 5 => ⟨S10000x1, .i32⟩
  | 6 => ⟨S64x256, .f32⟩
  | 7 => ⟨S_, .f32⟩
  | 8 => ⟨S10000, .f32⟩
  | 9 => ⟨S_, .f32⟩
  | 10 => ⟨S64, .f32⟩
  | 11 => ⟨S10000x1, .i32⟩
  | 12 => ⟨S64, .f32⟩
  | 13 => ⟨S_, .f32⟩
  | 14 => ⟨S64, .f32⟩
  | 15 => ⟨S64, .f32⟩
  | 16 => ⟨S64x1, .f32⟩
  | 17 => ⟨S64x256, .f32⟩
  | 18 => ⟨S64x256, .f32⟩
  | 19 => ⟨S64x8, .f32⟩
  | 20 => ⟨S1x8, .f32⟩
  | 21 => ⟨S64x8, .f32⟩
  | 22 => ⟨S64x8, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S64x256 : S_.BroadcastsInDim S64x256 (![] : Fin 0 → Fin S64x256.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  dot_S10000x512_S512x512_S10000x512_1_0_0_1_n_n_wf : DotDims.WF S10000x512 S512x512 S10000x512 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S10000x512_S512x256_S10000x256_1_0_0_1_n_n_wf : DotDims.WF S10000x512 S512x256 S10000x256 [1] [0] [0] [1] [] []
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1
  scatter_S64x256_S10000x1_S10000x256_1_0_0_1_wf : ScatterDims.WF S64x256 S10000x1 S10000x256 [1] [0] [0] 1
  scatter_S64_S10000x1_S10000_n_0_0_1_wf : ScatterDims.WF S64 S10000x1 S10000 [] [0] [0] 1
  dot_S64x256_S256x8_S64x8_1_0_0_1_n_n_wf : DotDims.WF S64x256 S256x8 S64x8 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x256_S256x8_S64x8_1_0_0_1_n_n : DotDims S64x256 S256x8 S64x8 where
  lhsContracting := [1]
  rhsContracting := [0]
  lhsNonContracting := [0]
  rhsNonContracting := [1]
  lhsBatch := []
  rhsBatch := []
  wf := dot_S64x256_S256x8_S64x8_1_0_0_1_n_n_wf

class Facts : Prop extends Facts₀ where

variable [Facts]
-- ==== Proof.KRun.lean ====
/-
  The idealized kernel program's run with its RESULT named.
  @main is eleven segments: three stretches of host operations, the first matrix product as a pipelined region,
  three stretches, the second matrix product as a region, three stretches. The buffer contents at the segment
  boundaries are a fold from the launch memory (`W0` … `W11`): a stretch applies its operations, a region replaces
  its result array by what its write-backs leave. The frame theorem reads only the argument arrays off the last
  boundary `W11`; here the same launch over the same segments is read at the result buffer as well: every weakly
  fair execution terminates, the result buffer holds `W11` at the result reference, the arguments are unchanged.
-/
import proofs.«124185_j63239098466369_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents `W11` at the result reference (every unscoped buffer is read off the last thread state against the final
    state), and each argument array ends as launched. -/
theorem run_result : θ_run defs (onTc (τ := τ) (main (F := F))) ⟨m, fun _ => 0, ρ⟩ (fun r => ∀ c : Dev nD,
      r.2.mem ((c.tc : Thread nD τ).loc main_v85) = W11 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v85 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Result

end
-- ==== Proof.Product1.lean ====
/-
  The first matrix product as the region leaves it.
  The pipelined call walks 10000 rows in five blocks of 2000 rows; at each grid point the body multiplies the point's
  2000 × 512 block of the left operand by the whole 512 × 512 right operand into a zero accumulator and stores the
  2000 × 512 product, which is written back as block `t` of the result array. At the extended reals the product's
  entry (r, c) is the sum over k of left (r, k) · right (k, c), so the block a point writes back is the restriction
  of ONE function of the two operand arrays (`prod`), and since the five blocks tile the array, the array the region
  leaves IS that function — for any buffer contents `V` the region is entered with.
-/
import proofs.«124185_j63239098466369_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product1

open Cert.KernelIdeal Cert.KernelIdeal.Gen
open Idealize.ShloMosaic Idealize.ShloMosaic.TcCoe Idealize.SL.Sem
open Idealize.ShloMosaic.Pipeline (Dat Cfg Window)

theorem hz : (![0, 0] : Fin 2 → Nat) = fun _ => 0 := funext fun a => by fin_cases a <;> rfl

/-! ## The product as one function of the operand arrays -/

/-- Entry (r, k) of the left array, for the result index `i` = (r, c). -/
abbrev lrow (i : S10000x512.Idx) (k : Fin 512) : S10000x512.Idx := fun a => match a with
  | ⟨0, _⟩ => ⟨(i 0).val, (i 0).isLt⟩
  | ⟨1, _⟩ => ⟨k.val, k.isLt⟩
/-- Entry (k, c) of the right array, for the result index `i` = (r, c). -/
abbrev rcol (i : S10000x512.Idx) (k : Fin 512) : S512x512.Idx := fun a => match a with
  | ⟨0, _⟩ => ⟨k.val, k.isLt⟩
  | ⟨1, _⟩ => ⟨(i 1).val, (i 1).isLt⟩

/-- The matrix product of two arrays over the extended reals: entry (r, c) is Σ_k a (r, k) · b (k, c). -/
def prod (a : S10000x512.Idx → EReal) (b : S512x512.Idx → EReal) : S10000x512.Idx → EReal :=
  fun i => ∑ k : Fin 512, a (lrow i k) * b (rcol i k)

/-! ## The body's product at an index of the block -/

/-- Entry (r, k) of the left block, for the block index `j` = (r, c). -/
abbrev blrow (j : S2000x512.Idx) (k : Fin 512) : S2000x512.Idx := fun a => match a with
  | ⟨0, _⟩ => ⟨(j 0).val, (j 0).isLt⟩
  | ⟨1, _⟩ => ⟨k.val, k.isLt⟩
/-- Entry (k, c) of the right operand, for the block index `j` = (r, c). -/
abbrev brcol (j : S2000x512.Idx) (k : Fin 512) : S512x512.Idx := fun a => match a with
  | ⟨0, _⟩ => ⟨k.val, k.isLt⟩
  | ⟨1, _⟩ => ⟨(j 1).val, (j 1).isLt⟩

theorem lhs_0 (j : S2000x512.Idx) (q : dot_S2000x512_S512x512_S2000x512_1_0_0_1_n_n.contr.Idx) :
    (dot_S2000x512_S512x512_S2000x512_1_0_0_1_n_n.lhsIdx j q 0).val = (j 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_1 (j : S2000x512.Idx) (q : dot_S2000x512_S512x512_S2000x512_1_0_0_1_n_n.contr.Idx) :
    (dot_S2000x512_S512x512_S2000x512_1_0_0_1_n_n.lhsIdx j q 1).val = (q ⟨0, by decide⟩).val :=
  dot_S2000x512_S512x512_S2000x512_1_0_0_1_n_n.lhsIdx_val_of_single rfl j q
theorem rhs_0 (j : S2000x512.Idx) (q : dot_S2000x512_S512x512_S2000x512_1_0_0_1_n_n.contr.Idx) :
    (dot_S2000x512_S512x512_S2000x512_1_0_0_1_n_n.rhsIdx j q 0).val = (q ⟨0, by decide⟩).val :=
  dot_S2000x512_S512x512_S2000x512_1_0_0_1_n_n.rhsIdx_val_of_single rfl j q
theorem rhs_1 (j : S2000x512.Idx) (q : dot_S2000x512_S512x512_S2000x512_1_0_0_1_n_n.contr.Idx) :
    (dot_S2000x512_S512x512_S2000x512_1_0_0_1_n_n.rhsIdx j q 1).val = (j 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The body's stored value at a block index: the product into the zero accumulator is the plain sum over the
    contracted axis (the two same-shape casts are the identity). -/
theorem pay_apply (x0 : FVec Ideal S2000x512 .bf16) (x1 : FVec Ideal S512x512 .bf16) (j : S2000x512.Idx) :
    k0_pay1 (F := Ideal) x0 x1 j = ∑ k : Fin 512, x0 (blrow j k) * x1 (brcol j k) := by
  unfold k0_pay1
  show matmul dot_S2000x512_S512x512_S2000x512_1_0_0_1_n_n none (shapeCast S2000x512 x0 shapeCasts_S2000x512_S2000x512)
      (shapeCast S512x512 x1 shapeCasts_S512x512_S512x512) (constant S2000x512 .f32 0x00000000#32) j = _
  rw [shapeCast_self, shapeCast_self]
  simp only [matmul]
  rw [Ideal.matmul_constant_zero_apply, ← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx j ((ValueIdx.contrEquiv1 dot_S2000x512_S512x512_S2000x512_1_0_0_1_n_n 512 rfl rfl).symm k) = blrow j k := funext fun a => Fin.ext (by
    match a with
    | ⟨0, _⟩ => exact lhs_0 _ _
    | ⟨1, _⟩ => exact (lhs_1 _ _).trans hk)
  have er : dot_S2000x512_S512x512_S2000x512_1_0_0_1_n_n.rhsIdx j ((ValueIdx.contrEquiv1 dot_S2000x512_S512x512_S2000x512_1_0_0_1_n_n 512 rfl rfl).symm k) = brcol j k := funext fun a => Fin.ext (by
    match a with
    | ⟨0, _⟩ => exact (rhs_0 _ _).trans hk
    | ⟨1, _⟩ => exact rhs_1 _ _)
  rw [el, er]

/-! ## From blocks to the array -/

/-- The printed index maps over the five grid points: the left window's block row is the result window's, every
    other block coordinate is 0, and the result's block row is below 5. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every one of the five row blocks is some grid point's. -/
theorem idx_onto : ∀ q0 : Fin 5, ∃ t : Fin cfg0.N, win0_2.index t = ![q0.val, 0] :=
  (by decide +kernel : ∀ q0 : Fin 5, ∃ t : Fin grid0.N, win0_2.index t = ![q0.val, 0])

variable (V : (c : Dev nD) → (b : Ref sig .tc) → Buf (Elt Ideal) ((c : Thread nD τ).loc b))

/-- The left operand array as the region finds it, as a function on indices into the extended reals. -/
abbrev left (c : Dev nD) : S10000x512.Idx → EReal := V c main_v30
/-- The right operand array as the region finds it. -/
abbrev right (c : Dev nD) : S512x512.Idx → EReal := V c main_v31

/-- What grid point `t` writes back is block `t` of the product of the two operand arrays as the region finds them:
    row r of the left block is row 2000·t + r of the left array, and the right operand's one block is the whole
    right array. -/
theorem flushed_eq (c : Dev nD) (t : Fin cfg0.N) :
    (dat0 (F := Ideal) V c).flushed 2 t
      = ((cfg0.win 2).blk t).view.read (Elt Ideal) (prod (left V c) (right V c)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x512) hz]
  obtain ⟨e0, e1, e2, e3, e4, e5⟩ := idx_facts t
  funext j
  show k0_pay1 (iblk0 V c 0 t) (iblk0 V c 1 t) j = prod (left V c) (right V c) (((cfg0.win 2).blk t).view.emb j)
  refine (pay_apply (iblk0 V c 0 t) (iblk0 V c 1 t) j).trans ?_
  refine Finset.sum_congr rfl fun k _ => ?_
  show left V c (((cfg0.win 0).blk t).view.emb (blrow j k)) * right V c (((cfg0.win 1).blk t).view.emb (brcol j k))
    = left V c (lrow (((cfg0.win 2).blk t).view.emb j) k) * right V c (rcol (((cfg0.win 2).blk t).view.emb j) k)
  have hj0 : (j 0).val < 2000 := (j 0).isLt
  have hj1 : (j 1).val < 512 := (j 1).isLt
  have h0 : ((cfg0.win 0).blk t).view.emb (blrow j k) = lrow (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : ((cfg0.win 1).blk t).view.emb (brcol j k) = rcol (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega
  rw [h0, h1]

/-- An index of the result array is in point `t`'s block iff each coordinate is in the block's range on its axis. -/
theorem mem_blk (t : Fin cfg0.N) (i : S10000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v32).slice (win0_2.rect t)).set ↔ _
  rw [View.set_slice_whole, Rect.mem_set_unit]
  exact Iff.rfl

/-- The five blocks tile the result array: row r lies in the block of the point whose block row is r / 2000. -/
theorem cover (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- THE ARRAY the region leaves: the product of the two operand arrays it was entered with. -/
theorem array_eq (c : Dev nD) :
    (dat0 (F := Ideal) V c).arrAt 2 cfg0.N = prod (left V c) (right V c) :=
  (dat0 V c).arrAt_eq_of_cover 2 (prod (left V c) (right V c)) (fun t _ => flushed_eq V c t) cover

end Cert.KernelIdeal.Product1

end
-- ==== Proof.Product2.lean ====
/-
  The second matrix product as the region leaves it.
  The pipelined call walks 10000 rows in five blocks of 2000 rows; at each grid point the body multiplies the point's
  2000 × 512 block of the left operand by the whole 512 × 256 right operand into a zero accumulator and stores the
  2000 × 256 product, which is written back as block `t` of the result array. At the extended reals the product's
  entry (r, c) is the sum over k of left (r, k) · right (k, c), so the block a point writes back is the restriction
  of ONE function of the two operand arrays (`prod`), and since the five blocks tile the array, the array the region
  leaves IS that function — for any buffer contents `V` the region is entered with.
-/
import proofs.«124185_j63239098466369_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen
open Idealize.ShloMosaic Idealize.ShloMosaic.TcCoe Idealize.SL.Sem
open Idealize.ShloMosaic.Pipeline (Dat Cfg Window)

theorem hz : (![0, 0] : Fin 2 → Nat) = fun _ => 0 := funext fun a => by fin_cases a <;> rfl

/-! ## The product as one function of the operand arrays -/

/-- Entry (r, k) of the left array, for the result index `i` = (r, c). -/
abbrev lrow (i : S10000x256.Idx) (k : Fin 512) : S10000x512.Idx := fun a => match a with
  | ⟨0, _⟩ => ⟨(i 0).val, (i 0).isLt⟩
  | ⟨1, _⟩ => ⟨k.val, k.isLt⟩
/-- Entry (k, c) of the right array, for the result index `i` = (r, c). -/
abbrev rcol (i : S10000x256.Idx) (k : Fin 512) : S512x256.Idx := fun a => match a with
  | ⟨0, _⟩ => ⟨k.val, k.isLt⟩
  | ⟨1, _⟩ => ⟨(i 1).val, (i 1).isLt⟩

/-- The matrix product of two arrays over the extended reals: entry (r, c) is Σ_k a (r, k) · b (k, c). -/
def prod (a : S10000x512.Idx → EReal) (b : S512x256.Idx → EReal) : S10000x256.Idx → EReal :=
  fun i => ∑ k : Fin 512, a (lrow i k) * b (rcol i k)

/-! ## The body's product at an index of the block -/

/-- Entry (r, k) of the left block, for the block index `j` = (r, c). -/
abbrev blrow (j : S2000x256.Idx) (k : Fin 512) : S2000x512.Idx := fun a => match a with
  | ⟨0, _⟩ => ⟨(j 0).val, (j 0).isLt⟩
  | ⟨1, _⟩ => ⟨k.val, k.isLt⟩
/-- Entry (k, c) of the right operand, for the block index `j` = (r, c). -/
abbrev brcol (j : S2000x256.Idx) (k : Fin 512) : S512x256.Idx := fun a => match a with
  | ⟨0, _⟩ => ⟨k.val, k.isLt⟩
  | ⟨1, _⟩ => ⟨(j 1).val, (j 1).isLt⟩

theorem lhs_0 (j : S2000x256.Idx) (q : dot_S2000x512_S512x256_S2000x256_1_0_0_1_n_n.contr.Idx) :
    (dot_S2000x512_S512x256_S2000x256_1_0_0_1_n_n.lhsIdx j q 0).val = (j 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs_1 (j : S2000x256.Idx) (q : dot_S2000x512_S512x256_S2000x256_1_0_0_1_n_n.contr.Idx) :
    (dot_S2000x512_S512x256_S2000x256_1_0_0_1_n_n.lhsIdx j q 1).val = (q ⟨0, by decide⟩).val :=
  dot_S2000x512_S512x256_S2000x256_1_0_0_1_n_n.lhsIdx_val_of_single rfl j q
theorem rhs_0 (j : S2000x256.Idx) (q : dot_S2000x512_S512x256_S2000x256_1_0_0_1_n_n.contr.Idx) :
    (dot_S2000x512_S512x256_S2000x256_1_0_0_1_n_n.rhsIdx j q 0).val = (q ⟨0, by decide⟩).val :=
  dot_S2000x512_S512x256_S2000x256_1_0_0_1_n_n.rhsIdx_val_of_single rfl j q
theorem rhs_1 (j : S2000x256.Idx) (q : dot_S2000x512_S512x256_S2000x256_1_0_0_1_n_n.contr.Idx) :
    (dot_S2000x512_S512x256_S2000x256_1_0_0_1_n_n.rhsIdx j q 1).val = (j 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The body's stored value at a block index: the product into the zero accumulator is the plain sum over the
    contracted axis (the two same-shape casts are the identity). -/
theorem pay_apply (x0 : FVec Ideal S2000x512 .bf16) (x1 : FVec Ideal S512x256 .bf16) (j : S2000x256.Idx) :
    k1_pay1 (F := Ideal) x0 x1 j = ∑ k : Fin 512, x0 (blrow j k) * x1 (brcol j k) := by
  unfold k1_pay1
  show matmul dot_S2000x512_S512x256_S2000x256_1_0_0_1_n_n none (shapeCast S2000x512 x0 shapeCasts_S2000x512_S2000x512)
      (shapeCast S512x256 x1 shapeCasts_S512x256_S512x256) (constant S2000x256 .f32 0x00000000#32) j = _
  rw [shapeCast_self, shapeCast_self]
  simp only [matmul]
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx j ((ValueIdx.contrEquiv1 dot_S2000x512_S512x256_S2000x256_1_0_0_1_n_n 512 rfl rfl).symm k) = blrow j k := funext fun a => Fin.ext (by
    match a with
    | ⟨0, _⟩ => exact lhs_0 _ _
    | ⟨1, _⟩ => exact (lhs_1 _ _).trans hk)
  have er : dot_S2000x512_S512x256_S2000x256_1_0_0_1_n_n.rhsIdx j ((ValueIdx.contrEquiv1 dot_S2000x512_S512x256_S2000x256_1_0_0_1_n_n 512 rfl rfl).symm k) = brcol j k := funext fun a => Fin.ext (by
    match a with
    | ⟨0, _⟩ => exact (rhs_0 _ _).trans hk
    | ⟨1, _⟩ => exact rhs_1 _ _)
  rw [el, er]

/-! ## From blocks to the array -/

/-- The printed index maps over the five grid points: the left window's block row is the result window's, every
    other block coordinate is 0, and the result's block row is below 5. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 4 :=
  (by decide +kernel : ∀ t : Fin grid1.N, _)

/-- Every one of the five row blocks is some grid point's. -/
theorem idx_onto : ∀ q0 : Fin 5, ∃ t : Fin cfg1.N, win1_2.index t = ![q0.val, 0] :=
  (by decide +kernel : ∀ q0 : Fin 5, ∃ t : Fin grid1.N, win1_2.index t = ![q0.val, 0])

variable (V : (c : Dev nD) → (b : Ref sig .tc) → Buf (Elt Ideal) ((c : Thread nD τ).loc b))

/-- The left operand array as the region finds it, as a function on indices into the extended reals. -/
abbrev left (c : Dev nD) : S10000x512.Idx → EReal := V c main_v50
/-- The right operand array as the region finds it. -/
abbrev right (c : Dev nD) : S512x256.Idx → EReal := V c main_v51

/-- What grid point `t` writes back is block `t` of the product of the two operand arrays as the region finds them:
    row r of the left block is row 2000·t + r of the left array, and the right operand's one block is the whole
    right array. -/
theorem flushed_eq (c : Dev nD) (t : Fin cfg1.N) :
    (dat1 (F := Ideal) V c).flushed 2 t
      = ((cfg1.win 2).blk t).view.read (Elt Ideal) (prod (left V c) (right V c)) := by
  show (cfg1.win 2).cut (grid1.coords t) ((dat1 V c).after 2 t) = _
  rw [after1_2]
  unfold out1_2
  rw [View.canon_unit_zero hz]
  simp only [View.ld_unit_zero (S := S2000x512) hz, View.ld_unit_zero (S := S512x256) hz]
  obtain ⟨e0, e1, e2, e3, e4, e5⟩ := idx_facts t
  funext j
  show k1_pay1 (iblk1 V c 0 t) (iblk1 V c 1 t) j = prod (left V c) (right V c) (((cfg1.win 2).blk t).view.emb j)
  refine (pay_apply (iblk1 V c 0 t) (iblk1 V c 1 t) j).trans ?_
  refine Finset.sum_congr rfl fun k _ => ?_
  show left V c (((cfg1.win 0).blk t).view.emb (blrow j k)) * right V c (((cfg1.win 1).blk t).view.emb (brcol j k))
    = left V c (lrow (((cfg1.win 2).blk t).view.emb j) k) * right V c (rcol (((cfg1.win 2).blk t).view.emb j) k)
  have hj0 : (j 0).val < 2000 := (j 0).isLt
  have hj1 : (j 1).val < 256 := (j 1).isLt
  have h0 : ((cfg1.win 0).blk t).view.emb (blrow j k) = lrow (((cfg1.win 2).blk t).view.emb j) k := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 512 + 1 * k.val = k.val; omega
  have h1 : ((cfg1.win 1).blk t).view.emb (brcol j k) = rcol (((cfg1.win 2).blk t).view.emb j) k := by
    funext a; apply Fin.ext
    match a with
    | ⟨0, _⟩ => show win1_1.index t (0 : Fin 2) * 512 + 1 * k.val = k.val; omega
    | ⟨1, _⟩ => show win1_1.index t (1 : Fin 2) * 256 + 1 * (j 1).val = win1_2.index t (1 : Fin 2) * 256 + 1 * (j 1).val; omega
  rw [h0, h1]

/-- An index of the result array is in point `t`'s block iff each coordinate is in the block's range on its axis. -/
theorem mem_blk (t : Fin cfg1.N) (i : S10000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v52).slice (win1_2.rect t)).set ↔ _
  rw [View.set_slice_whole, Rect.mem_set_unit]
  exact Iff.rfl

/-- The five blocks tile the result array: row r lies in the block of the point whose block row is r / 2000. -/
theorem cover (i : S10000x256.Idx) : ∃ t : Fin cfg1.N, (cfg1.win 2).flush t = true ∧ i ∈ ((cfg1.win 2).blk t).view.set := by
  have hi0 : (i 0).val < 10000 := (i 0).isLt
  have hi1 : (i 1).val < 256 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- THE ARRAY the region leaves: the product of the two operand arrays it was entered with. -/
theorem array_eq (c : Dev nD) :
    (dat1 (F := Ideal) V c).arrAt 2 cfg1.N = prod (left V c) (right V c) :=
  (dat1 V c).arrAt_eq_of_cover 2 (prod (left V c) (right V c)) (fun t _ => flushed_eq V c t) cover

end Cert.KernelIdeal.Product2

end
-- ==== Proof.Stages.lean ====
/-
  The host operations of the idealized kernel program, stretch by stretch, read against the reference's stages.
  Around its two matrix products the kernel program runs the reference's own operations: the edge lists with the
  self loops appended (source, destination), the symmetric normalisation d(src)^(-1/2) · d(dst)^(-1/2) from the
  in-degrees, then per layer "gather the source rows, scale by the normalisation, scatter-add at the destinations, add
  the bias, clamp at 0", and last the per-graph mean and the linear head. Each lemma here takes ANY buffer contents
  `V` a stretch is entered with and states what one buffer holds after the stretch, as the reference's stage of the
  same name-free meaning (`val_…` of the reference read one operation at a time) applied to what `V` holds — the
  operations are the same terms, so each is closed by unfolding. The kernel computes the normalisation once and the
  reference once per layer: the second copy is the same term (`norm_again` and its two index lists).
-/
import proofs.«124185_j63239098466369_1_alg».proof.Proof.Gen.KernelIdeal.Launch
import proofs.«124185_j63239098466369_1_alg».proof.Proof.RefReadP
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

/-! ## The reference's second copy of the edge lists and of the normalisation -/

theorem src_again (x7 : (⟨Cert.ReferenceIdeal.S2x160000, .i32⟩ : BufTy).Contents (Elt F)) : Cert.ReferenceIdeal.ReadP.val_main_v50 (F := F) x7 = Cert.ReferenceIdeal.ReadP.val_main_v6 (F := F) x7 := rfl
theorem dst_again (x7 : (⟨Cert.ReferenceIdeal.S2x160000, .i32⟩ : BufTy).Contents (Elt F)) : Cert.ReferenceIdeal.ReadP.val_main_v51 (F := F) x7 = Cert.ReferenceIdeal.ReadP.val_main_v7 (F := F) x7 := rfl
theorem norm_again (x7 : (⟨Cert.ReferenceIdeal.S2x160000, .i32⟩ : BufTy).Contents (Elt F)) : Cert.ReferenceIdeal.ReadP.val_main_v74 (F := F) x7 = Cert.ReferenceIdeal.ReadP.val_main_v30 (F := F) x7 := rfl

/-! ## Before the first product: edge lists, normalisation, the operands -/

theorem pre_src (V : Valuation τ sig (Elt F)) :
    StableHlo.after hostOps0_2 (StableHlo.after hostOps0_1 (StableHlo.after hostOps0 V)) (Proc.devRef .tc main_v5) = Cert.ReferenceIdeal.ReadP.val_main_v6 (F := F) (V (Proc.devRef .tc main_arg7)) := by
  dsimp only [hostOps0, hostOps0_1, hostOps0_2]; after_results_simp <;> rfl
theorem pre_dst (V : Valuation τ sig (Elt F)) :
    StableHlo.after hostOps0_2 (StableHlo.after hostOps0_1 (StableHlo.after hostOps0 V)) (Proc.devRef .tc main_v6) = Cert.ReferenceIdeal.ReadP.val_main_v7 (F := F) (V (Proc.devRef .tc main_arg7)) := by
  dsimp only [hostOps0, hostOps0_1, hostOps0_2]; after_results_simp <;> rfl
theorem pre_norm (V : Valuation τ sig (Elt F)) :
    StableHlo.after hostOps0_2 (StableHlo.after hostOps0_1 (StableHlo.after hostOps0 V)) (Proc.devRef .tc main_v29) = Cert.ReferenceIdeal.ReadP.val_main_v30 (F := F) (V (Proc.devRef .tc main_arg7)) := by
  dsimp only [hostOps0, hostOps0_1, hostOps0_2]; after_results_simp <;> rfl
theorem pre_left (V : Valuation τ sig (Elt F)) :
    StableHlo.after hostOps0_2 (StableHlo.after hostOps0_1 (StableHlo.after hostOps0 V)) (Proc.devRef .tc main_v30) = truncf .bf16 (V (Proc.devRef .tc main_arg0)) bitsLt_bf16_f32 := by
  dsimp only [hostOps0, hostOps0_1, hostOps0_2]; after_results_simp
theorem pre_right (V : Valuation τ sig (Elt F)) :
    StableHlo.after hostOps0_2 (StableHlo.after hostOps0_1 (StableHlo.after hostOps0 V)) (Proc.devRef .tc main_v31) = truncf .bf16 (V (Proc.devRef .tc main_arg1)) bitsLt_bf16_f32 := by
  dsimp only [hostOps0, hostOps0_1, hostOps0_2]; after_results_simp
theorem pre_main_arg2 (V : Valuation τ sig (Elt F)) : StableHlo.after hostOps0_2 (StableHlo.after hostOps0_1 (StableHlo.after hostOps0 V)) (Proc.devRef .tc main_arg2) = V (Proc.devRef .tc main_arg2) := by
  dsimp only [hostOps0, hostOps0_1, hostOps0_2]; after_results_simp
theorem pre_main_arg3 (V : Valuation τ sig (Elt F)) : StableHlo.after hostOps0_2 (StableHlo.after hostOps0_1 (StableHlo.after hostOps0 V)) (Proc.devRef .tc main_arg3) = V (Proc.devRef .tc main_arg3) := by
  dsimp only [hostOps0, hostOps0_1, hostOps0_2]; after_results_simp
theorem pre_main_arg4 (V : Valuation τ sig (Elt F)) : StableHlo.after hostOps0_2 (StableHlo.after hostOps0_1 (StableHlo.after hostOps0 V)) (Proc.devRef .tc main_arg4) = V (Proc.devRef .tc main_arg4) := by
  dsimp only [hostOps0, hostOps0_1, hostOps0_2]; after_results_simp
theorem pre_main_arg5 (V : Valuation τ sig (Elt F)) : StableHlo.after hostOps0_2 (StableHlo.after hostOps0_1 (StableHlo.after hostOps0 V)) (Proc.devRef .tc main_arg5) = V (Proc.devRef .tc main_arg5) := by
  dsimp only [hostOps0, hostOps0_1, hostOps0_2]; after_results_simp
theorem pre_main_arg6 (V : Valuation τ sig (Elt F)) : StableHlo.after hostOps0_2 (StableHlo.after hostOps0_1 (StableHlo.after hostOps0 V)) (Proc.devRef .tc main_arg6) = V (Proc.devRef .tc main_arg6) := by
  dsimp only [hostOps0, hostOps0_1, hostOps0_2]; after_results_simp
theorem pre_main_arg7 (V : Valuation τ sig (Elt F)) : StableHlo.after hostOps0_2 (StableHlo.after hostOps0_1 (StableHlo.after hostOps0 V)) (Proc.devRef .tc main_arg7) = V (Proc.devRef .tc main_arg7) := by
  dsimp only [hostOps0, hostOps0_1, hostOps0_2]; after_results_simp
theorem pre_main_arg8 (V : Valuation τ sig (Elt F)) : StableHlo.after hostOps0_2 (StableHlo.after hostOps0_1 (StableHlo.after hostOps0 V)) (Proc.devRef .tc main_arg8) = V (Proc.devRef .tc main_arg8) := by
  dsimp only [hostOps0, hostOps0_1, hostOps0_2]; after_results_simp

/-! ## Between the products: the first layer's aggregation, bias and clamp; the second product's operands -/

theorem mid_left (V : Valuation τ sig (Elt F))
    (x0 : (⟨Cert.ReferenceIdeal.S10000x512, .f32⟩ : BufTy).Contents (Elt F)) (x1 : (⟨Cert.ReferenceIdeal.S512x512, .f32⟩ : BufTy).Contents (Elt F)) (x2 : (⟨Cert.ReferenceIdeal.S512, .f32⟩ : BufTy).Contents (Elt F)) (x7 : (⟨Cert.ReferenceIdeal.S2x160000, .i32⟩ : BufTy).Contents (Elt F))
    (hp : V (Proc.devRef .tc main_v32) = Cert.ReferenceIdeal.ReadP.val_main_v4 (F := F) x0 x1)
    (hs : V (Proc.devRef .tc main_v5) = Cert.ReferenceIdeal.ReadP.val_main_v6 (F := F) x7) (hd : V (Proc.devRef .tc main_v6) = Cert.ReferenceIdeal.ReadP.val_main_v7 (F := F) x7)
    (hn : V (Proc.devRef .tc main_v29) = Cert.ReferenceIdeal.ReadP.val_main_v30 (F := F) x7) (hb : V (Proc.devRef .tc main_arg2) = x2) :
    StableHlo.after hostOps1_2 (StableHlo.after hostOps1_1 (StableHlo.after hostOps1 V)) (Proc.devRef .tc main_v50) = truncf .bf16 (Cert.ReferenceIdeal.ReadP.val_main_v47 (F := F) x0 x1 x2 x7) bitsLt_bf16_f32 := by
  dsimp only [hostOps1, hostOps1_1, hostOps1_2]; after_results_simp
  rw [hp, hs, hd, hn, hb]; rfl
theorem mid_right (V : Valuation τ sig (Elt F)) :
    StableHlo.after hostOps1_2 (StableHlo.after hostOps1_1 (StableHlo.after hostOps1 V)) (Proc.devRef .tc main_v51) = truncf .bf16 (V (Proc.devRef .tc main_arg3)) bitsLt_bf16_f32 := by
  dsimp only [hostOps1, hostOps1_1, hostOps1_2]; after_results_simp
theorem mid_main_v5 (V : Valuation τ sig (Elt F)) : StableHlo.after hostOps1_2 (StableHlo.after hostOps1_1 (StableHlo.after hostOps1 V)) (Proc.devRef .tc main_v5) = V (Proc.devRef .tc main_v5) := by
  dsimp only [hostOps1, hostOps1_1, hostOps1_2]; after_results_simp
theorem mid_main_v6 (V : Valuation τ sig (Elt F)) : StableHlo.after hostOps1_2 (StableHlo.after hostOps1_1 (StableHlo.after hostOps1 V)) (Proc.devRef .tc main_v6) = V (Proc.devRef .tc main_v6) := by
  dsimp only [hostOps1, hostOps1_1, hostOps1_2]; after_results_simp
theorem mid_main_v29 (V : Valuation τ sig (Elt F)) : StableHlo.after hostOps1_2 (StableHlo.after hostOps1_1 (StableHlo.after hostOps1 V)) (Proc.devRef .tc main_v29) = V (Proc.devRef .tc main_v29) := by
  dsimp only [hostOps1, hostOps1_1, hostOps1_2]; after_results_simp
theorem mid_main_arg4 (V : Valuation τ sig (Elt F)) : StableHlo.after hostOps1_2 (StableHlo.after hostOps1_1 (StableHlo.after hostOps1 V)) (Proc.devRef .tc main_arg4) = V (Proc.devRef .tc main_arg4) := by
  dsimp only [hostOps1, hostOps1_1, hostOps1_2]; after_results_simp
theorem mid_main_arg5 (V : Valuation τ sig (Elt F)) : StableHlo.after hostOps1_2 (StableHlo.after hostOps1_1 (StableHlo.after hostOps1 V)) (Proc.devRef .tc main_arg5) = V (Proc.devRef .tc main_arg5) := by
  dsimp only [hostOps1, hostOps1_1, hostOps1_2]; after_results_simp
theorem mid_main_arg6 (V : Valuation τ sig (Elt F)) : StableHlo.after hostOps1_2 (StableHlo.after hostOps1_1 (StableHlo.after hostOps1 V)) (Proc.devRef .tc main_arg6) = V (Proc.devRef .tc main_arg6) := by
  dsimp only [hostOps1, hostOps1_1, hostOps1_2]; after_results_simp
theorem mid_main_arg7 (V : Valuation τ sig (Elt F)) : StableHlo.after hostOps1_2 (StableHlo.after hostOps1_1 (StableHlo.after hostOps1 V)) (Proc.devRef .tc main_arg7) = V (Proc.devRef .tc main_arg7) := by
  dsimp only [hostOps1, hostOps1_1, hostOps1_2]; after_results_simp
theorem mid_main_arg8 (V : Valuation τ sig (Elt F)) : StableHlo.after hostOps1_2 (StableHlo.after hostOps1_1 (StableHlo.after hostOps1 V)) (Proc.devRef .tc main_arg8) = V (Proc.devRef .tc main_arg8) := by
  dsimp only [hostOps1, hostOps1_1, hostOps1_2]; after_results_simp

/-! ## After the second product: the second layer's aggregation, the per-graph mean, the head -/

theorem fin_result (V : Valuation τ sig (Elt F))
    (x0 : (⟨Cert.ReferenceIdeal.S10000x512, .f32⟩ : BufTy).Contents (Elt F)) (x1 : (⟨Cert.ReferenceIdeal.S512x512, .f32⟩ : BufTy).Contents (Elt F)) (x2 : (⟨Cert.ReferenceIdeal.S512, .f32⟩ : BufTy).Contents (Elt F)) (x3 : (⟨Cert.ReferenceIdeal.S512x256, .f32⟩ : BufTy).Contents (Elt F))
    (x4 : (⟨Cert.ReferenceIdeal.S256, .f32⟩ : BufTy).Contents (Elt F)) (x5 : (⟨Cert.ReferenceIdeal.S256x8, .f32⟩ : BufTy).Contents (Elt F)) (x6 : (⟨Cert.ReferenceIdeal.S8, .f32⟩ : BufTy).Contents (Elt F)) (x7 : (⟨Cert.ReferenceIdeal.S2x160000, .i32⟩ : BufTy).Contents (Elt F)) (x8 : (⟨Cert.ReferenceIdeal.S10000, .i32⟩ : BufTy).Contents (Elt F))
    (hp : V (Proc.devRef .tc main_v52) = Cert.ReferenceIdeal.ReadP.val_main_v48 (F := F) x0 x1 x2 x3 x7)
    (hs : V (Proc.devRef .tc main_v5) = Cert.ReferenceIdeal.ReadP.val_main_v50 (F := F) x7) (hd : V (Proc.devRef .tc main_v6) = Cert.ReferenceIdeal.ReadP.val_main_v51 (F := F) x7)
    (hn : V (Proc.devRef .tc main_v29) = Cert.ReferenceIdeal.ReadP.val_main_v74 (F := F) x7)
    (h4 : V (Proc.devRef .tc main_arg4) = x4) (h5 : V (Proc.devRef .tc main_arg5) = x5) (h6 : V (Proc.devRef .tc main_arg6) = x6) (h8 : V (Proc.devRef .tc main_arg8) = x8) :
    StableHlo.after hostOps2_2 (StableHlo.after hostOps2_1 (StableHlo.after hostOps2 V)) (Proc.devRef .tc main_v85) = Cert.ReferenceIdeal.ReadP.val_main_v107 (F := F) x0 x1 x2 x3 x4 x5 x6 x7 x8 := by
  dsimp only [hostOps2, hostOps2_1, hostOps2_2]; after_results_simp
  rw [hp, hs, hd, hn, h4, h5, h6, h8]; rfl

end Cert.KernelIdeal.Stages

end
-- ==== Proof.Bridge.lean ====
/-
  The idealized kernel program's result is the reference's function of the arguments.
  The buffer contents at the segment boundaries are followed from the launch memory to the return. Before the first
  product the kernel holds the reference's edge lists and normalisation and the two operands (the change of float
  format is the identity on extended reals); the first region leaves the matrix product, entry (r, c) = Σ_k x (r, k) ·
  W1 (k, c), which is the reference's `dot_general` read at an index; the stretch between the products is the
  reference's first aggregation; the second region leaves the second product; the last stretch is the reference's
  second aggregation, mean and head. No finiteness is used: only that the blockwise product and the whole product
  are the same sum.
-/
import proofs.«124185_j63239098466369_1_alg».proof.Proof.Gen.KernelIdeal.Frame
import proofs.«124185_j63239098466369_1_alg».proof.Proof.Product1
import proofs.«124185_j63239098466369_1_alg».proof.Proof.Product2
import proofs.«124185_j63239098466369_1_alg».proof.Proof.Stages

set_option maxRecDepth 16384

noncomputable section

namespace Cert.KernelIdeal.Bridge

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The blockwise products are the reference's whole products -/

/-- Σ_k x (r, k) · w (k, c) is the host's `dot_general` at (r, c); rounding the operands to bf16 first changes nothing
    on extended reals. -/
theorem product1_eq (x0 : (⟨Cert.ReferenceIdeal.S10000x512, .f32⟩ : BufTy).Contents (Elt Ideal)) (x1 : (⟨Cert.ReferenceIdeal.S512x512, .f32⟩ : BufTy).Contents (Elt Ideal)) :
    Product1.prod (truncf (F := Ideal) (s := S10000x512) (φ := .f32) .bf16 x0 bitsLt_bf16_f32) (truncf (F := Ideal) (s := S512x512) (φ := .f32) .bf16 x1 bitsLt_bf16_f32) = Cert.ReferenceIdeal.ReadP.val_main_v4 (F := Ideal) x0 x1 := by
  funext i
  rw [Cert.ReferenceIdeal.ReadP.val_main_v4_apply]
  rfl

theorem product2_eq (y : (⟨Cert.ReferenceIdeal.S10000x512, .f32⟩ : BufTy).Contents (Elt Ideal)) (x3 : (⟨Cert.ReferenceIdeal.S512x256, .f32⟩ : BufTy).Contents (Elt Ideal))
    (x0 : (⟨Cert.ReferenceIdeal.S10000x512, .f32⟩ : BufTy).Contents (Elt Ideal)) (x1 : (⟨Cert.ReferenceIdeal.S512x512, .f32⟩ : BufTy).Contents (Elt Ideal))
    (x2 : (⟨Cert.ReferenceIdeal.S512, .f32⟩ : BufTy).Contents (Elt Ideal)) (x7 : (⟨Cert.ReferenceIdeal.S2x160000, .i32⟩ : BufTy).Contents (Elt Ideal))
    (hy : y = Cert.ReferenceIdeal.ReadP.val_main_v47 (F := Ideal) x0 x1 x2 x7) :
    Product2.prod (truncf (F := Ideal) (s := S10000x512) (φ := .f32) .bf16 y bitsLt_bf16_f32) (truncf (F := Ideal) (s := S512x256) (φ := .f32) .bf16 x3 bitsLt_bf16_f32) = Cert.ReferenceIdeal.ReadP.val_main_v48 (F := Ideal) x0 x1 x2 x3 x7 := by
  funext i
  rw [Cert.ReferenceIdeal.ReadP.val_main_v48_apply, ← hy]
  rfl

/-! ## Region 0's entry: edge lists, normalisation, operands -/

theorem w3_src : W3 m ρ c (Proc.devRef .tc main_v5) = Cert.ReferenceIdeal.ReadP.val_main_v6 (F := Ideal) (m ((c : Thread nD τ).loc main_arg7)) := Stages.pre_src (W0 m ρ c)
theorem w3_dst : W3 m ρ c (Proc.devRef .tc main_v6) = Cert.ReferenceIdeal.ReadP.val_main_v7 (F := Ideal) (m ((c : Thread nD τ).loc main_arg7)) := Stages.pre_dst (W0 m ρ c)
theorem w3_norm : W3 m ρ c (Proc.devRef .tc main_v29) = Cert.ReferenceIdeal.ReadP.val_main_v30 (F := Ideal) (m ((c : Thread nD τ).loc main_arg7)) := Stages.pre_norm (W0 m ρ c)
theorem w3_left : W3 m ρ c (Proc.devRef .tc main_v30) = truncf (F := Ideal) (s := S10000x512) (φ := .f32) .bf16 (m ((c : Thread nD τ).loc main_arg0)) bitsLt_bf16_f32 := Stages.pre_left (W0 m ρ c)
theorem w3_right : W3 m ρ c (Proc.devRef .tc main_v31) = truncf (F := Ideal) (s := S512x512) (φ := .f32) .bf16 (m ((c : Thread nD τ).loc main_arg1)) bitsLt_bf16_f32 := Stages.pre_right (W0 m ρ c)
theorem w3_arg2 : W3 m ρ c (Proc.devRef .tc main_arg2) = (m ((c : Thread nD τ).loc main_arg2)) := Stages.pre_main_arg2 (W0 m ρ c)
theorem w3_arg3 : W3 m ρ c (Proc.devRef .tc main_arg3) = (m ((c : Thread nD τ).loc main_arg3)) := Stages.pre_main_arg3 (W0 m ρ c)
theorem w3_arg4 : W3 m ρ c (Proc.devRef .tc main_arg4) = (m ((c : Thread nD τ).loc main_arg4)) := Stages.pre_main_arg4 (W0 m ρ c)
theorem w3_arg5 : W3 m ρ c (Proc.devRef .tc main_arg5) = (m ((c : Thread nD τ).loc main_arg5)) := Stages.pre_main_arg5 (W0 m ρ c)
theorem w3_arg6 : W3 m ρ c (Proc.devRef .tc main_arg6) = (m ((c : Thread nD τ).loc main_arg6)) := Stages.pre_main_arg6 (W0 m ρ c)
theorem w3_arg7 : W3 m ρ c (Proc.devRef .tc main_arg7) = (m ((c : Thread nD τ).loc main_arg7)) := Stages.pre_main_arg7 (W0 m ρ c)
theorem w3_arg8 : W3 m ρ c (Proc.devRef .tc main_arg8) = (m ((c : Thread nD τ).loc main_arg8)) := Stages.pre_main_arg8 (W0 m ρ c)

/-! ## Region 0's exit -/

theorem w4_prod : W4 m ρ c (Proc.devRef .tc main_v32) = Cert.ReferenceIdeal.ReadP.val_main_v4 (F := Ideal) (m ((c : Thread nD τ).loc main_arg0)) (m ((c : Thread nD τ).loc main_arg1)) := by
  refine (W4_arr m ρ c 2).trans ?_
  refine (Product1.array_eq (V3 m ρ) c).trans ?_
  refine Eq.trans ?_ (product1_eq (m ((c : Thread nD τ).loc main_arg0)) (m ((c : Thread nD τ).loc main_arg1)))
  show Product1.prod (W3 m ρ c (Proc.devRef .tc main_v30)) (W3 m ρ c (Proc.devRef .tc main_v31)) = _
  rw [w3_left, w3_right]
theorem w4_main_v5 : W4 m ρ c (Proc.devRef .tc main_v5) = W3 m ρ c (Proc.devRef .tc main_v5) := W4_of_ne m ρ c main_v5 (by decide)
theorem w4_main_v6 : W4 m ρ c (Proc.devRef .tc main_v6) = W3 m ρ c (Proc.devRef .tc main_v6) := W4_of_ne m ρ c main_v6 (by decide)
theorem w4_main_v29 : W4 m ρ c (Proc.devRef .tc main_v29) = W3 m ρ c (Proc.devRef .tc main_v29) := W4_of_ne m ρ c main_v29 (by decide)
theorem w4_main_arg2 : W4 m ρ c (Proc.devRef .tc main_arg2) = W3 m ρ c (Proc.devRef .tc main_arg2) := W4_of_ne m ρ c main_arg2 (by decide)
theorem w4_main_arg3 : W4 m ρ c (Proc.devRef .tc main_arg3) = W3 m ρ c (Proc.devRef .tc main_arg3) := W4_of_ne m ρ c main_arg3 (by decide)
theorem w4_main_arg4 : W4 m ρ c (Proc.devRef .tc main_arg4) = W3 m ρ c (Proc.devRef .tc main_arg4) := W4_of_ne m ρ c main_arg4 (by decide)
theorem w4_main_arg5 : W4 m ρ c (Proc.devRef .tc main_arg5) = W3 m ρ c (Proc.devRef .tc main_arg5) := W4_of_ne m ρ c main_arg5 (by decide)
theorem w4_main_arg6 : W4 m ρ c (Proc.devRef .tc main_arg6) = W3 m ρ c (Proc.devRef .tc main_arg6) := W4_of_ne m ρ c main_arg6 (by decide)
theorem w4_main_arg7 : W4 m ρ c (Proc.devRef .tc main_arg7) = W3 m ρ c (Proc.devRef .tc main_arg7) := W4_of_ne m ρ c main_arg7 (by decide)
theorem w4_main_arg8 : W4 m ρ c (Proc.devRef .tc main_arg8) = W3 m ρ c (Proc.devRef .tc main_arg8) := W4_of_ne m ρ c main_arg8 (by decide)

/-! ## Region 1's entry -/

theorem w7_left : W7 m ρ c (Proc.devRef .tc main_v50) = truncf (F := Ideal) (s := S10000x512) (φ := .f32) .bf16 (Cert.ReferenceIdeal.ReadP.val_main_v47 (F := Ideal) (m ((c : Thread nD τ).loc main_arg0)) (m ((c : Thread nD τ).loc main_arg1)) (m ((c : Thread nD τ).loc main_arg2)) (m ((c : Thread nD τ).loc main_arg7))) bitsLt_bf16_f32 :=
  Stages.mid_left (W4 m ρ c) (m ((c : Thread nD τ).loc main_arg0)) (m ((c : Thread nD τ).loc main_arg1)) (m ((c : Thread nD τ).loc main_arg2)) (m ((c : Thread nD τ).loc main_arg7)) (w4_prod m ρ c)
    ((w4_main_v5 m ρ c).trans (w3_src m ρ c)) ((w4_main_v6 m ρ c).trans (w3_dst m ρ c))
    ((w4_main_v29 m ρ c).trans (w3_norm m ρ c)) ((w4_main_arg2 m ρ c).trans (w3_arg2 m ρ c))
theorem w7_right : W7 m ρ c (Proc.devRef .tc main_v51) = truncf (F := Ideal) (s := S512x256) (φ := .f32) .bf16 (m ((c : Thread nD τ).loc main_arg3)) bitsLt_bf16_f32 :=
  (Stages.mid_right (W4 m ρ c)).trans (congrArg (fun z => truncf (F := Ideal) (s := S512x256) (φ := .f32) .bf16 z bitsLt_bf16_f32) ((w4_main_arg3 m ρ c).trans (w3_arg3 m ρ c)))
theorem w7_src : W7 m ρ c (Proc.devRef .tc main_v5) = Cert.ReferenceIdeal.ReadP.val_main_v6 (F := Ideal) (m ((c : Thread nD τ).loc main_arg7)) :=
  (Stages.mid_main_v5 (W4 m ρ c)).trans ((w4_main_v5 m ρ c).trans (w3_src m ρ c))
theorem w7_dst : W7 m ρ c (Proc.devRef .tc main_v6) = Cert.ReferenceIdeal.ReadP.val_main_v7 (F := Ideal) (m ((c : Thread nD τ).loc main_arg7)) :=
  (Stages.mid_main_v6 (W4 m ρ c)).trans ((w4_main_v6 m ρ c).trans (w3_dst m ρ c))
theorem w7_norm : W7 m ρ c (Proc.devRef .tc main_v29) = Cert.ReferenceIdeal.ReadP.val_main_v30 (F := Ideal) (m ((c : Thread nD τ).loc main_arg7)) :=
  (Stages.mid_main_v29 (W4 m ρ c)).trans ((w4_main_v29 m ρ c).trans (w3_norm m ρ c))
theorem w7_arg4 : W7 m ρ c (Proc.devRef .tc main_arg4) = (m ((c : Thread nD τ).loc main_arg4)) :=
  (Stages.mid_main_arg4 (W4 m ρ c)).trans ((w4_main_arg4 m ρ c).trans (w3_arg4 m ρ c))
theorem w7_arg5 : W7 m ρ c (Proc.devRef .tc main_arg5) = (m ((c : Thread nD τ).loc main_arg5)) :=
  (Stages.mid_main_arg5 (W4 m ρ c)).trans ((w4_main_arg5 m ρ c).trans (w3_arg5 m ρ c))
theorem w7_arg6 : W7 m ρ c (Proc.devRef .tc main_arg6) = (m ((c : Thread nD τ).loc main_arg6)) :=
  (Stages.mid_main_arg6 (W4 m ρ c)).trans ((w4_main_arg6 m ρ c).trans (w3_arg6 m ρ c))
theorem w7_arg8 : W7 m ρ c (Proc.devRef .tc main_arg8) = (m ((c : Thread nD τ).loc main_arg8)) :=
  (Stages.mid_main_arg8 (W4 m ρ c)).trans ((w4_main_arg8 m ρ c).trans (w3_arg8 m ρ c))

/-! ## Region 1's exit -/

theorem w8_prod : W8 m ρ c (Proc.devRef .tc main_v52) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  refine (W8_arr m ρ c 2).trans ?_
  refine (Product2.array_eq (V7 m ρ) c).trans ?_
  refine Eq.trans ?_ (product2_eq _ (m ((c : Thread nD τ).loc main_arg3)) (m ((c : Thread nD τ).loc main_arg0)) (m ((c : Thread nD τ).loc main_arg1)) (m ((c : Thread nD τ).loc main_arg2)) (m ((c : Thread nD τ).loc main_arg7)) rfl)
  show Product2.prod (W7 m ρ c (Proc.devRef .tc main_v50)) (W7 m ρ c (Proc.devRef .tc main_v51)) = _
  rw [w7_left, w7_right]
theorem w8_main_v5 : W8 m ρ c (Proc.devRef .tc main_v5) = W7 m ρ c (Proc.devRef .tc main_v5) := W8_of_ne m ρ c main_v5 (by decide)
theorem w8_main_v6 : W8 m ρ c (Proc.devRef .tc main_v6) = W7 m ρ c (Proc.devRef .tc main_v6) := W8_of_ne m ρ c main_v6 (by decide)
theorem w8_main_v29 : W8 m ρ c (Proc.devRef .tc main_v29) = W7 m ρ c (Proc.devRef .tc main_v29) := W8_of_ne m ρ c main_v29 (by decide)
theorem w8_main_arg4 : W8 m ρ c (Proc.devRef .tc main_arg4) = W7 m ρ c (Proc.devRef .tc main_arg4) := W8_of_ne m ρ c main_arg4 (by decide)
theorem w8_main_arg5 : W8 m ρ c (Proc.devRef .tc main_arg5) = W7 m ρ c (Proc.devRef .tc main_arg5) := W8_of_ne m ρ c main_arg5 (by decide)
theorem w8_main_arg6 : W8 m ρ c (Proc.devRef .tc main_arg6) = W7 m ρ c (Proc.devRef .tc main_arg6) := W8_of_ne m ρ c main_arg6 (by decide)
theorem w8_main_arg8 : W8 m ρ c (Proc.devRef .tc main_arg8) = W7 m ρ c (Proc.devRef .tc main_arg8) := W8_of_ne m ρ c main_arg8 (by decide)

/-! ## The return -/

/-- The result buffer at the last boundary is the reference's last stage of the launch contents of the arguments. -/
theorem result_eq : W11 m ρ c (Proc.devRef .tc main_v85)
    = Cert.ReferenceIdeal.ReadP.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  Stages.fin_result (W8 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (w8_prod m ρ c)
    ((w8_main_v5 m ρ c).trans ((w7_src m ρ c).trans (Stages.src_again _).symm))
    ((w8_main_v6 m ρ c).trans ((w7_dst m ρ c).trans (Stages.dst_again _).symm))
    ((w8_main_v29 m ρ c).trans ((w7_norm m ρ c).trans (Stages.norm_again _).symm))
    ((w8_main_arg4 m ρ c).trans (w7_arg4 m ρ c)) ((w8_main_arg5 m ρ c).trans (w7_arg5 m ρ c))
    ((w8_main_arg6 m ρ c).trans (w7_arg6 m ρ c)) ((w8_main_arg8 m ρ c).trans (w7_arg8 m ρ c))

end Cert.KernelIdeal.Bridge

end
-- ==== Proof.lean ====
/-
  A two-layer graph convolution network with mean pooling and a linear head: the kernel program against its jnp reference.
  Both programs compute, from node features x, weights W1, W2, Wl, biases b1, b2, bl, an edge list and a graph-id list:
  h1 = max (A (x · W1) + b1, 0), h2 = max (A (h1 · W2) + b2, 0), the per-graph mean of h2, times Wl, plus bl — where A
  gathers the source rows of its argument along the edges (self loops appended), scales each by d(src)^(-1/2) ·
  d(dst)^(-1/2) and scatter-adds at the destinations. The kernel program differs in two ways only: it computes the two
  products x · W1 and h1 · W2 in pipelined regions, five blocks of 2000 rows each, on operands first rounded to bf16; and
  it computes the normalisation once where the reference computes it once per layer.
  Over the extended reals the rounding is the identity and a product computed block by block is the whole product
  (each entry is the same sum over the contracted axis; Proof/Product1.lean, Proof/Product2.lean), so the region's
  result array is the reference's `dot_general`; every other operation is the reference's own, and the second copy of
  the normalisation is the same term (Proof/Stages.lean, Proof/Bridge.lean). The precondition (finite inputs) is not
  used: no algebraic law that fails at an infinity is needed.
  The three frames: the two kernel programs' are the generated frame certificates; the reference's is its run with the
  result dropped. The ideal pass rewrote nothing, so `preserves` is `True`.
-/
import proofs.«124185_j63239098466369_1_alg».proof.Defs
import proofs.«124185_j63239098466369_1_alg».proof.Proof.Gen.Kernel
import proofs.«124185_j63239098466369_1_alg».proof.Proof.Gen.Kernel.Skeleton
import proofs.«124185_j63239098466369_1_alg».proof.Proof.Gen.Kernel.Launch
import proofs.«124185_j63239098466369_1_alg».proof.Proof.Gen.Kernel.Points
import proofs.«124185_j63239098466369_1_alg».proof.Proof.Gen.Kernel.Frame
import proofs.«124185_j63239098466369_1_alg».proof.Proof.Gen.KernelIdeal
import proofs.«124185_j63239098466369_1_alg».proof.Proof.Gen.KernelIdeal.Skeleton
import proofs.«124185_j63239098466369_1_alg».proof.Proof.Gen.KernelIdeal.Launch
import proofs.«124185_j63239098466369_1_alg».proof.Proof.Gen.KernelIdeal.Points
import proofs.«124185_j63239098466369_1_alg».proof.Proof.Gen.KernelIdeal.Frame
import proofs.«124185_j63239098466369_1_alg».proof.Proof.Gen.ReferenceIdeal
import proofs.«124185_j63239098466369_1_alg».proof.Proof.Gen.Pre_finite_inputs
import proofs.«124185_j63239098466369_1_alg».proof.Proof.RefRunP
import proofs.«124185_j63239098466369_1_alg».proof.Proof.RefReadP
import proofs.«124185_j63239098466369_1_alg».proof.Proof.KRun
import proofs.«124185_j63239098466369_1_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both programs end with the result at the reference's last stage of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.ReadP.val_main_v107 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Bridge.result_eq m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8⟩ := hagree c
    rw [Cert.ReferenceIdeal.ReadP.val_main_v107_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
